-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x64 : Shape := ⟨2, ![1600000, 64]⟩
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S1600000x64 .f32) (main_arg1 : FVec F S100000x64 .f32) (main_arg2 : IVec S1600000 32) (main_arg3 : FVec F S128x128 .f32) (main_arg4 : FVec F S128 .f32) (main_arg5 : FVec F S128x64 .f32) (main_arg6 : FVec F S64 .f32) (main_arg7 : FVec F S64 .f32) (main_arg8 : FVec F S64 .f32) : IVec S_ 1 :=
  let main_v0 : FVec F S1600000x64 .f32 := Host.absf main_arg0
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S1600000x64 : Shape := ⟨2, ![1600000, 64]⟩
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S64x128 : Shape := ⟨2, ![64, 128]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩
abbrev S5000 : Shape := ⟨1, ![5000]⟩
abbrev S5000x1 : Shape := ⟨2, ![5000, 1]⟩

abbrev nBuf : Space → Nat
  | .hbm => 16
  | .vmem => 13
  | .smem => 0
  | _ => 0

abbrev bufTy : (tb : Table) → Fin (tcTables nBuf tb) → BufTy
  | .hbm, ⟨0, _⟩ => ⟨S1600000x64, .f32⟩
  | .hbm, ⟨1, _⟩ => ⟨S100000x64, .f32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S100000x64, .f32⟩
  | .hbm, ⟨11, _⟩ => ⟨S1600000x1, .i32⟩
  | .hbm, ⟨12, _⟩ => ⟨S100000x64, .f32⟩
  | .hbm, ⟨13, _⟩ => ⟨S64x128, .f32⟩
  | .hbm, ⟨14, _⟩ => ⟨S64x128, .f32⟩
  | .hbm, ⟨15, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S128x64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S5000x64, .f32⟩
  | .local _ .vmem, ⟨12, _⟩ => ⟨S5000x64, .f32⟩
  | _, _ => ⟨S1600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1600000x64 : Shape := ⟨2, ![1600000, 64]⟩
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S100000x128 : Shape := ⟨2, ![100000, 128]⟩
abbrev S1x128 : Shape := ⟨2, ![1, 128]⟩
abbrev S1x64 : Shape := ⟨2, ![1, 64]⟩
abbrev S100000 : Shape := ⟨1, ![100000]⟩
abbrev S100000x1 : Shape := ⟨2, ![100000, 1]⟩

abbrev nBuf : Space → Nat
  | .hbm => 61
  | .vmem => 0
  | .smem => 0
  | _ => 0

abbrev bufTy : (tb : Table) → Fin (tcTables nBuf tb) → BufTy
  | .hbm, ⟨0, _⟩ => ⟨S1600000x64, .f32⟩
  | .hbm, ⟨1, _⟩ => ⟨S100000x64, .f32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S100000x64, .f32⟩
  | .hbm, ⟨11, _⟩ => ⟨S1600000x1, .i32⟩
  | .hbm, ⟨12, _⟩ => ⟨S100000x64, .f32⟩
  | .hbm, ⟨13, _⟩ => ⟨S100000x128, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000, .f32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000, .f32⟩
  | .hbm, ⟨42, _⟩ => ⟨S100000x1, .f32⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S100000x64, .f32⟩
  | _, _ => ⟨S1600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  scatter_S100000x64_S1600000x1_S1600000x64_1_0_0_1_wf : ScatterDims.WF S100000x64 S1600000x1 S1600000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelDots.lean ====
/-
  The kernel's two matrix products read at an output entry, on the extended reals.

  A product into a zero accumulator is, at entry (p, k) of the result, the plain sum over the contracted axis of
  the left operand's row p times the right operand's column k: there is no rounding and no order of accumulation
  left at this instance. Stated once for the [5000,64] x [64,128] product (used twice, for the aggregated-edge half
  and the node half of the first linear layer) and once for the [5000,128] x [128,64] product (the second layer).
-/
import proofs.«172644_j44564580663324_1_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

theorem d1_lhs0 (j : S5000x128.Idx) (q : dot_S5000x64_S64x128_S5000x128_1_0_0_1_n_n.contr.Idx) : (dot_S5000x64_S64x128_S5000x128_1_0_0_1_n_n.lhsIdx j q 0).val = (j 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem d1_lhs1 (j : S5000x128.Idx) (q : dot_S5000x64_S64x128_S5000x128_1_0_0_1_n_n.contr.Idx) : (dot_S5000x64_S64x128_S5000x128_1_0_0_1_n_n.lhsIdx j q 1).val = (q ⟨0, by decide⟩).val :=
  dot_S5000x64_S64x128_S5000x128_1_0_0_1_n_n.lhsIdx_val_of_single rfl j q
theorem d1_rhs0 (j : S5000x128.Idx) (q : dot_S5000x64_S64x128_S5000x128_1_0_0_1_n_n.contr.Idx) : (dot_S5000x64_S64x128_S5000x128_1_0_0_1_n_n.rhsIdx j q 0).val = (q ⟨0, by decide⟩).val :=
  dot_S5000x64_S64x128_S5000x128_1_0_0_1_n_n.rhsIdx_val_of_single rfl j q
theorem d1_rhs1 (j : S5000x128.Idx) (q : dot_S5000x64_S64x128_S5000x128_1_0_0_1_n_n.contr.Idx) : (dot_S5000x64_S64x128_S5000x128_1_0_0_1_n_n.rhsIdx j q 1).val = (j 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry (p, k) of a [5000,64] x [64,128] product into zero: the sum over the 64 contracted entries. -/
theorem dot1_apply {φ₁ φ₂ : FTy} (l : FVec Ideal S5000x64 φ₁) (r : FVec Ideal S64x128 φ₂) (p : Fin 5000) (k : Fin 128) :
    matmul dot_S5000x64_S64x128_S5000x128_1_0_0_1_n_n none l r (constant S5000x128 .f32 0x00000000#32) (ix2 p k)
      = ∑ i : Fin 64, l (ix2 p i) * r (ix2 i k) := by
  show FloatOps.matmul dot_S5000x64_S64x128_S5000x128_1_0_0_1_n_n none l r (constant S5000x128 .f32 0x00000000#32) (ix2 p k) = _
  rw [Ideal.matmul_constant_zero_apply, ← Equiv.sum_comp (ValueIdx.contrEquiv1 dot_S5000x64_S64x128_S5000x128_1_0_0_1_n_n 64 rfl rfl).symm]
  refine Finset.sum_congr rfl fun i _ => ?_
  have hi := ValueIdx.contrEquiv1_symm_val dot_S5000x64_S64x128_S5000x128_1_0_0_1_n_n 64 rfl rfl i
  have el : dot_S5000x64_S64x128_S5000x128_1_0_0_1_n_n.lhsIdx (ix2 p k) ((ValueIdx.contrEquiv1 dot_S5000x64_S64x128_S5000x128_1_0_0_1_n_n 64 rfl rfl).symm i) = ix2 p i := funext fun a => Fin.ext (by
    match a with
    | ⟨0, _⟩ => exact d1_lhs0 _ _
    | ⟨1, _⟩ => exact (d1_lhs1 _ _).trans hi)
  have er : dot_S5000x64_S64x128_S5000x128_1_0_0_1_n_n.rhsIdx (ix2 p k) ((ValueIdx.contrEquiv1 dot_S5000x64_S64x128_S5000x128_1_0_0_1_n_n 64 rfl rfl).symm i) = ix2 i k := funext fun a => Fin.ext (by
    match a with
    | ⟨0, _⟩ => exact (d1_rhs0 _ _).trans hi
    | ⟨1, _⟩ => exact d1_rhs1 _ _)
  rw [el, er]

theorem d2_lhs0 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem d2_lhs1 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem d2_rhs0 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem d2_rhs1 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of a [5000,128] x [128,64] product into zero: the sum over the 128 contracted entries. -/
theorem dot2_apply {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  show FloatOps.matmul dot_S5000x128_S128x64_S5000x64_1_0_0_1_n_n none l r (constant S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact d2_lhs0 _ _
    | ⟨1, _⟩ => exact (d2_lhs1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (d2_rhs0 _ _).trans hk
    | ⟨1, _⟩ => exact d2_rhs1 _ _)
  rw [el, er]

end Cert.KernelIdeal.Dots

end
-- ==== Proof.RowSpec.lean ====
/-
  One output row of the node update, as a function of one row of aggregated edge features, one row of node
  features and the layer's weights, on the extended reals; and the whole updated array, row by row.

  A node's new features depend only on that node's own two input rows:
    preact k  = (sum_i a i * Wa i k + sum_i n i * Wb i k) + b1 k          (128 hidden units)
    act k     = preact k * logistic (preact k)                            (SiLU)
    out2 q    = (sum_k act k * W2 k q) + b2 q                             (64 outputs)
    mean      = (sum_q out2 q) / 64
    var       = (sum_q (out2 q - mean) * (out2 q - mean)) / 64
    new q     = ((out2 q - mean) * rsqrt (var + eps)) * g q + b q + n q   (layer norm, then the residual)
  The two 64-term sums of the hidden layer are one 128-term sum over the row [a | n] joined end to end against the
  stacked matrix [Wa ; Wb]: a finite sum over a disjoint union splits, and that needs only that addition on the
  extended reals is commutative and associative, so no entry has to be finite.
-/
import Idealize.ShloMosaic.PureOps.Ideal
import Idealize.ShloMosaic.PureOps.Ideal.Laws
import Idealize.ShloMosaic.Lib.IdealHost
import Idealize.ShloMosaic.Lib.ValueIdx
import Mathlib.Algebra.BigOperators.Fin

noncomputable section

namespace Cert.RowSpec

open Idealize.ShloMosaic Idealize.ShloMosaic.ValueIdx

/-- The divisor 64.0 of both means, as the word both programs print. -/
abbrev c64 : EReal := Ideal.ofBits .f32 0x42800000#32
/-- The layer norm's epsilon, as the word both programs print. -/
abbrev eps : EReal := Ideal.ofBits .f32 0x3727C5AC#32

/-- Hidden unit `k` before the activation: the two halves of the first linear layer, then the bias. -/
def preact (a n : Fin 64 → EReal) (Wa Wb : Fin 64 → Fin 128 → EReal) (b1 : Fin 128 → EReal) (k : Fin 128) : EReal :=
  (∑ i : Fin 64, a i * Wa i k + ∑ i : Fin 64, n i * Wb i k) + b1 k

/-- SiLU: `x * logistic x`. -/
def silu (x : EReal) : EReal := x * Ideal.logistic x

/-- Output `q` of the second linear layer applied to the activated hidden units. -/
def outLayer (h : Fin 128 → EReal) (W2 : Fin 128 → Fin 64 → EReal) (b2 : Fin 64 → EReal) (q : Fin 64) : EReal :=
  (∑ k : Fin 128, silu (h k) * W2 k q) + b2 q

/-- The mean of a row of 64 entries. -/
def rowMean (v : Fin 64 → EReal) : EReal := Ideal.div (∑ q : Fin 64, v q) c64

/-- The variance of a row of 64 entries (the mean of the squared deviations). -/
def rowVar (v : Fin 64 → EReal) : EReal := Ideal.div (∑ q : Fin 64, (v q - rowMean v) * (v q - rowMean v)) c64

/-- Layer norm of a row with scale `g` and shift `b`, at entry `q`. -/
def layerNorm (v g b : Fin 64 → EReal) (q : Fin 64) : EReal :=
  ((v q - rowMean v) * Ideal.rsqrt (rowVar v + eps)) * g q + b q

/-- A node's new feature `q`: MLP of its two input rows, layer norm, plus the node's old feature. -/
def rowOut (a n : Fin 64 → EReal) (Wa Wb : Fin 64 → Fin 128 → EReal) (b1 : Fin 128 → EReal)
    (W2 : Fin 128 → Fin 64 → EReal) (b2 g b : Fin 64 → EReal) (q : Fin 64) : EReal :=
  layerNorm (outLayer (preact a n Wa Wb b1) W2 b2) g b q + n q

/-- The whole updated node-feature array: entry (r, q) is `rowOut` of row r of the aggregated edge features and
    row r of the node features. -/
def nodeOut (agg nf : (⟨2, ![100000, 64]⟩ : Shape).Idx → EReal) (Wa Wb : Fin 64 → Fin 128 → EReal)
    (b1 : Fin 128 → EReal) (W2 : Fin 128 → Fin 64 → EReal) (b2 g b : Fin 64 → EReal) :
    (⟨2, ![100000, 64]⟩ : Shape).Idx → EReal := fun i =>
  rowOut (fun k => agg (ix2 (i 0 : Fin 100000) k)) (fun k => nf (ix2 (i 0 : Fin 100000) k)) Wa Wb b1 W2 b2 g b
    (i 1 : Fin 64)

/-- The top 64 rows of a stacked [128,128] weight matrix: the half that multiplies the aggregated edge features. -/
abbrev topHalf (W : (⟨2, ![128, 128]⟩ : Shape).Idx → EReal) : Fin 64 → Fin 128 → EReal :=
  fun i k => W (ix2 ⟨i.val, by have := i.isLt; omega⟩ k)

/-- The bottom 64 rows of a stacked [128,128] weight matrix: the half that multiplies the node features. -/
abbrev botHalf (W : (⟨2, ![128, 128]⟩ : Shape).Idx → EReal) : Fin 64 → Fin 128 → EReal :=
  fun i k => W (ix2 ⟨64 + i.val, by have := i.isLt; omega⟩ k)

/-- The whole array at entry (r, q). -/
theorem nodeOut_apply (agg nf : (⟨2, ![100000, 64]⟩ : Shape).Idx → EReal) (Wa Wb : Fin 64 → Fin 128 → EReal)
    (b1 : Fin 128 → EReal) (W2 : Fin 128 → Fin 64 → EReal) (b2 g b : Fin 64 → EReal) (r : Fin 100000) (q : Fin 64) :
    nodeOut agg nf Wa Wb b1 W2 b2 g b (ix2 r q)
      = rowOut (fun k => agg (ix2 r k)) (fun k => nf (ix2 r k)) Wa Wb b1 W2 b2 g b q := rfl

/-- A 128-term sum splits into its first 64 and its last 64 terms. -/
theorem sum_split (f : Fin 128 → EReal) :
    ∑ j : Fin 128, f j
      = ∑ i : Fin 64, f ⟨i.val, by have := i.isLt; omega⟩ + ∑ i : Fin 64, f ⟨64 + i.val, by have := i.isLt; omega⟩ :=
  Fin.sum_univ_add (a := 64) (b := 64) (f : Fin (64 + 64) → EReal)

/-- The first linear layer over the joined row: if `cat` is `a` followed by `n`, the one 128-term product with the
    stacked weight matrix `W` is the two 64-term products with its top and bottom halves. -/
theorem preact_of_joined (a n : Fin 64 → EReal) (cat : Fin 128 → EReal) (W : Fin 128 → Fin 128 → EReal)
    (b1 : Fin 128 → EReal) (k : Fin 128)
    (hl : ∀ i : Fin 64, cat ⟨i.val, by have := i.isLt; omega⟩ = a i)
    (hr : ∀ i : Fin 64, cat ⟨64 + i.val, by have := i.isLt; omega⟩ = n i) :
    (∑ j : Fin 128, cat j * W j k) + b1 k
      = preact a n (fun i => W ⟨i.val, by have := i.isLt; omega⟩) (fun i => W ⟨64 + i.val, by have := i.isLt; omega⟩) b1 k := by
  unfold preact
  rw [sum_split (fun j => cat j * W j k)]
  simp only [hl, hr]

/-- jax's expansion of the logistic function, `1 / (1 + exp (-x))` with the literal ones as printed words, is the
    logistic function. -/
theorem logistic_expanded (x : EReal) :
    Ideal.div (Ideal.ofBits .f32 0x3F800000#32) (Ideal.ofBits .f32 0x3F800000#32 + Ideal.exp (-x)) = Ideal.logistic x := by
  rw [Ideal.ofBits_one_f32]
  rfl

end Cert.RowSpec

end
-- ==== Proof.KernelPayload.lean ====
/-
  The kernel body's second-layer output, read at an entry of a block, on the extended reals.

  For a block of 5000 nodes the body computes, from the block's rows of aggregated edge features `A` and node
  features `N` and the whole weight arrays, the [5000,64] array whose row p is the second linear layer of the
  activated first layer of row p. Read at entry (p, q) it is `RowSpec.outLayer (RowSpec.preact …) … q` of row p of `A`
  and row p of `N`: each matrix product is the plain sum over its contracted axis, a change of float format is the
  identity, the bias vectors are broadcast along the rows, and SiLU is `x * logistic x` entry by entry.
  A sum along a block's 64 lanes, read at row p, is the sum of that row's 64 entries.
-/
import proofs.«172644_j44564580663324_1_alg».proof.Proof.Gen.KernelIdeal.Skeleton
import proofs.«172644_j44564580663324_1_alg».proof.Proof.KernelDots
import proofs.«172644_j44564580663324_1_alg».proof.Proof.RowSpec
import Idealize.ShloMosaic.Lib.ValueLayout
import Idealize.ShloMosaic.Lib.Pipeline.Value

noncomputable section

namespace Cert.KernelIdeal.Payload

open Cert.KernelIdeal Cert.KernelIdeal.Gen Cert.KernelIdeal.Dots Cert.RowSpec
open Idealize.ShloMosaic Idealize.ShloMosaic.ValueIdx

variable (A N : FVec Ideal S5000x64 .f32) (Wa Wb : FVec Ideal S64x128 .f32) (B1 : FVec Ideal S128 .f32)
  (W2 : FVec Ideal S128x64 .f32) (B2 : FVec Ideal S64 .f32)

/-- Row `p` of a block of 64-entry rows. -/
abbrev row (X : FVec Ideal S5000x64 .f32) (p : Fin 5000) : Fin 64 → EReal := fun i => X (ix2 p i)
/-- A [64,128] array as a matrix. -/
abbrev mat1 (X : FVec Ideal S64x128 .f32) : Fin 64 → Fin 128 → EReal := fun i k => X (ix2 i k)
/-- A [128,64] array as a matrix. -/
abbrev mat2 (X : FVec Ideal S128x64 .f32) : Fin 128 → Fin 64 → EReal := fun k q => X (ix2 k q)
/-- A length-128 array as a vector. -/
abbrev vec128 (X : FVec Ideal S128 .f32) : Fin 128 → EReal := fun k => X (ix1 k)
/-- A length-64 array as a vector. -/
abbrev vec64 (X : FVec Ideal S64 .f32) : Fin 64 → EReal := fun q => X (ix1 q)

/-- The block of preact units before the activation, as the body computes it. -/
def pre : FVec Ideal S5000x128 .f32 :=
  addf (addf
      (matmul dot_S5000x64_S64x128_S5000x128_1_0_0_1_n_n none
        (truncf .bf16 (shapeCast S5000x64 A shapeCasts_S5000x64_S5000x64) bitsLt_bf16_f32)
        (truncf .bf16 (shapeCast S64x128 Wa shapeCasts_S64x128_S64x128) bitsLt_bf16_f32)
        (constant S5000x128 .f32 0x00000000#32))
      (matmul dot_S5000x64_S64x128_S5000x128_1_0_0_1_n_n none
        (truncf .bf16 N bitsLt_bf16_f32)
        (truncf .bf16 (shapeCast S64x128 Wb shapeCasts_S64x128_S64x128) bitsLt_bf16_f32)
        (constant S5000x128 .f32 0x00000000#32)))
    (broadcastTo S5000x128 (shapeCast S1x128 B1 shapeCasts_S128_S1x128) broadcasts_S1x128_S5000x128)

/-- Hidden unit `k` of node `p` before the activation. -/
theorem pre_apply (p : Fin 5000) (k : Fin 128) :
    pre A N Wa Wb B1 (ix2 p k) = preact (row A p) (row N p) (mat1 Wa) (mat1 Wb) (vec128 B1) k := by
  unfold pre preact
  rw [addf_apply, addf_apply, dot1_apply, dot1_apply, shapeCast_self, shapeCast_self, shapeCast_self,
    broadcastTo_1b_ab_apply, shapeCast_a_1a_apply]
  rfl

/-- The body's second-layer output is the product of the activated preact block with the second weight matrix,
    plus the bias broadcast along the rows. -/
theorem pay2_eq : k0_pay2 (F := Ideal) A N Wa Wb B1 W2 B2
    = addf (matmul dot_S5000x128_S128x64_S5000x64_1_0_0_1_n_n none
          (truncf .bf16 (mulf (pre A N Wa Wb B1) (logistic (pre A N Wa Wb B1))) bitsLt_bf16_f32)
          (truncf .bf16 W2 bitsLt_bf16_f32) (constant S5000x64 .f32 0x00000000#32))
        (broadcastTo S5000x64 (shapeCast S1x64 B2 shapeCasts_S64_S1x64) broadcasts_S1x64_S5000x64) := rfl

/-- Entry (p, q) of the body's second-layer output. -/
theorem pay2_apply (p : Fin 5000) (q : Fin 64) :
    k0_pay2 (F := Ideal) A N Wa Wb B1 W2 B2 (ix2 p q)
      = outLayer (preact (row A p) (row N p) (mat1 Wa) (mat1 Wb) (vec128 B1)) (mat2 W2) (vec64 B2) q := by
  rw [pay2_eq]
  unfold outLayer
  rw [addf_apply, dot2_apply, broadcastTo_1b_ab_apply, shapeCast_a_1a_apply]
  refine congrArg (fun z : EReal => z + B2 (ix1 q)) (Finset.sum_congr rfl fun k _ => ?_)
  refine congrArg (fun z : EReal => z * W2 (ix2 k q)) ?_
  show pre A N Wa Wb B1 (ix2 p k) * Ideal.logistic (pre A N Wa Wb B1 (ix2 p k)) = _
  rw [pre_apply]
  rfl

/-- A sum along the 64 lanes of a block, read at row `p`: the sum of the row's entries. -/
theorem laneSum_apply (X : FVec Ideal S5000x64 .f32) (p : Fin 5000) :
    multiReduction .add [1] S5000 X 0x00000000#32 reduces_S5000x64_S5000 (.inl rfl) rfl (ix1 p)
      = ∑ q : Fin 64, X (ix2 p q) := by
  refine (Ideal.multiReduction_add_single X 0x00000000#32 reduces_S5000x64_S5000 (.inl rfl) rfl (ix1 p)).trans ?_
  refine Finset.sum_congr rfl fun q _ => congrArg X (funext fun a => Fin.ext ?_)
  match a with
  | ⟨0, _⟩ => rfl
  | ⟨1, _⟩ => rfl

end Cert.KernelIdeal.Payload

end
-- ==== Proof.LibKeepdimsColumn.lean ====
/-
  Keepdims column layouts read at an index, generic in the extents and in the element type: a vector [a] seen as the
  column [a, 1] (what a sum over the last axis with keepdims leaves), and such a column stretched along its unit axis to
  [a, b] (what dividing every row by its own scalar needs). Each reads the operand at the row coordinate alone.
-/
import Idealize.ShloMosaic.Lib.Pipeline.Value
import Idealize.ShloMosaic.Lib.ValueIdx

namespace Cert.LibKeepdimsColumn

open Idealize.ShloMosaic Idealize.ShloMosaic.ValueIdx

variable {α : Type}

/-- A vector [a] cast to the column [a, 1] reads, at (i, u), the operand at i, whatever the unit coordinate u:
    both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its unit axis to [a, b] reads, at (p, q), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An index of a column [a, 1] is (its row, 0). -/
theorem eq_col {a : ℕ} (y : (⟨2, ![a, 1]⟩ : Shape).Idx) : ∃ r : Fin a, y = ix2 r (0 : Fin 1) := by
  obtain ⟨r, u, rfl⟩ : ∃ (r : Fin a) (u : Fin 1), y = ix2 r u := ⟨y 0, y 1, eq_ix2 y⟩
  obtain rfl : u = 0 := Subsingleton.elim _ _
  exact ⟨r, rfl⟩

end Cert.LibKeepdimsColumn
-- ==== Proof.KernelBlock.lean ====
/-
  What the kernel body leaves in a block of 5000 nodes, read entry by entry, on the extended reals.

  Entry (p, q) of the block is `RowSpec.rowOut` of row p of the block of aggregated edge features and row p of the
  block of node features: the second-layer row (`Payload.pay2_apply`), its mean and the mean of its squared
  deviations as sums along the 64 lanes, each kept as a one-entry-wide column and broadcast back along the lanes,
  the reciprocal square root, the scale and shift vectors broadcast along the rows, and the residual.
-/
import proofs.«172644_j44564580663324_1_alg».proof.Proof.Gen.KernelIdeal.Value
import proofs.«172644_j44564580663324_1_alg».proof.Proof.KernelPayload
import proofs.«172644_j44564580663324_1_alg».proof.Proof.LibKeepdimsColumn

noncomputable section

namespace Cert.KernelIdeal.Block

open Cert.KernelIdeal Cert.KernelIdeal.Gen Cert.KernelIdeal.Value Cert.KernelIdeal.Payload Cert.RowSpec
open Cert.LibKeepdimsColumn
open Idealize.ShloMosaic Idealize.ShloMosaic.ValueIdx

variable (A N : FVec Ideal S5000x64 .f32) (Wa Wb : FVec Ideal S64x128 .f32) (B1 : FVec Ideal S128 .f32)
  (W2 : FVec Ideal S128x64 .f32) (B2 Gm Bt : FVec Ideal S64 .f32)

/-! ## Where a block entry reads each value -/

theorem at0 (p : Fin 5000) (q : Fin 64) : ix9_0 (ix2 p q) = ix2 p q := funext fun a => Fin.ext (by match a with | ⟨0, _⟩ => rfl | ⟨1, _⟩ => rfl)
theorem at1 (p : Fin 5000) (q : Fin 64) : ix9_1 (ix2 p q) = ix1 p := funext fun a => Fin.ext (by match a with | ⟨0, _⟩ => rfl)
theorem at2 (p : Fin 5000) (q : Fin 64) : ix9_2 (ix2 p q) = ix1 p := funext fun a => Fin.ext (by match a with | ⟨0, _⟩ => rfl)
theorem at3 (p : Fin 5000) (q : Fin 64) : ix9_3 (ix2 p q) = ix1 q := funext fun a => Fin.ext (by match a with | ⟨0, _⟩ => rfl)
theorem at4 (p : Fin 5000) (q : Fin 64) : ix9_4 (ix2 p q) = ix1 q := funext fun a => Fin.ext (by match a with | ⟨0, _⟩ => rfl)
theorem at5 (p : Fin 5000) (q : Fin 64) : ix9_5 (ix2 p q) = ix2 p q := funext fun a => Fin.ext (by match a with | ⟨0, _⟩ => rfl | ⟨1, _⟩ => rfl)

/-! ## The mean, kept as a column and broadcast back along the lanes -/

/-- A block's row means, as a column broadcast to every lane, read at (p, r): the mean of row p. -/
theorem meanBack_apply (X : FVec Ideal S5000x64 .f32) (p : Fin 5000) (r : Fin 64) :
    broadcastTo S5000x64 (divf (shapeCast S5000x1 (multiReduction .add [1] S5000 X 0x00000000#32 reduces_S5000x64_S5000 (.inl rfl) rfl) shapeCasts_S5000_S5000x1) (broadcast S5000x1 (Scalar.ofBits .f32 0x42800000#32))) broadcasts_S5000x1_S5000x64 (ix2 p r)
      = rowMean (fun q => X (ix2 p q)) := by
  rw [broadcastTo_a1_ab_apply, divf_apply, shapeCast_a_a1_apply, laneSum_apply]
  rfl

/-- The squared deviation of entry (p, r) from its row's mean. -/
theorem sqDev_apply (X : FVec Ideal S5000x64 .f32) (p : Fin 5000) (r : Fin 64) :
    mulf (subf X (broadcastTo S5000x64 (divf (shapeCast S5000x1 (multiReduction .add [1] S5000 X 0x00000000#32 reduces_S5000x64_S5000 (.inl rfl) rfl) shapeCasts_S5000_S5000x1) (broadcast S5000x1 (Scalar.ofBits .f32 0x42800000#32))) broadcasts_S5000x1_S5000x64))
         (subf X (broadcastTo S5000x64 (divf (shapeCast S5000x1 (multiReduction .add [1] S5000 X 0x00000000#32 reduces_S5000x64_S5000 (.inl rfl) rfl) shapeCasts_S5000_S5000x1) (broadcast S5000x1 (Scalar.ofBits .f32 0x42800000#32))) broadcasts_S5000x1_S5000x64)) (ix2 p r)
      = (X (ix2 p r) - rowMean (fun q => X (ix2 p q))) * (X (ix2 p r) - rowMean (fun q => X (ix2 p q))) := by
  rw [mulf_apply, subf_apply, meanBack_apply]

/-! ## The block -/

/-- Entry (p, q) of what the body leaves in the output block. -/
theorem block_apply (p : Fin 5000) (q : Fin 64) :
    E9 (F := Ideal) A N Wa Wb B1 W2 B2 Gm Bt (ix2 p q)
      = rowOut (row A p) (row N p) (mat1 Wa) (mat1 Wb) (vec128 B1) (mat2 W2) (vec64 B2) (vec64 Gm) (vec64 Bt) q := by
  have hrow : (fun x : Fin 64 => k0_pay2 (F := Ideal) A N Wa Wb B1 W2 B2 (ix2 p x))
      = outLayer (preact (row A p) (row N p) (mat1 Wa) (mat1 Wb) (vec128 B1)) (mat2 W2) (vec64 B2) :=
    funext fun x => pay2_apply A N Wa Wb B1 W2 B2 p x
  have hmean : multiReduction .add [1] S5000 (k0_pay2 (F := Ideal) A N Wa Wb B1 W2 B2) 0x00000000#32 reduces_S5000x64_S5000 (.inl rfl) rfl (ix1 p)
      = ∑ x : Fin 64, outLayer (preact (row A p) (row N p) (mat1 Wa) (mat1 Wb) (vec128 B1)) (mat2 W2) (vec64 B2) x := by
    rw [laneSum_apply]
    exact Finset.sum_congr rfl fun x _ => pay2_apply A N Wa Wb B1 W2 B2 p x
  have hvar : multiReduction .add [1] S5000
        (mulf (subf (k0_pay2 (F := Ideal) A N Wa Wb B1 W2 B2) (broadcastTo S5000x64 (divf (shapeCast S5000x1 (multiReduction .add [1] S5000 (k0_pay2 (F := Ideal) A N Wa Wb B1 W2 B2) 0x00000000#32 reduces_S5000x64_S5000 (.inl rfl) rfl) shapeCasts_S5000_S5000x1) (broadcast S5000x1 (Scalar.ofBits .f32 0x42800000#32))) broadcasts_S5000x1_S5000x64)) (subf (k0_pay2 (F := Ideal) A N Wa Wb B1 W2 B2) (broadcastTo S5000x64 (divf (shapeCast S5000x1 (multiReduction .add [1] S5000 (k0_pay2 (F := Ideal) A N Wa Wb B1 W2 B2) 0x00000000#32 reduces_S5000x64_S5000 (.inl rfl) rfl) shapeCasts_S5000_S5000x1) (broadcast S5000x1 (Scalar.ofBits .f32 0x42800000#32))) broadcasts_S5000x1_S5000x64)))
        0x00000000#32 reduces_S5000x64_S5000 (.inl rfl) rfl (ix1 p)
      = ∑ r : Fin 64, (outLayer (preact (row A p) (row N p) (mat1 Wa) (mat1 Wb) (vec128 B1)) (mat2 W2) (vec64 B2) r
            - rowMean (outLayer (preact (row A p) (row N p) (mat1 Wa) (mat1 Wb) (vec128 B1)) (mat2 W2) (vec64 B2)))
          * (outLayer (preact (row A p) (row N p) (mat1 Wa) (mat1 Wb) (vec128 B1)) (mat2 W2) (vec64 B2) r
            - rowMean (outLayer (preact (row A p) (row N p) (mat1 Wa) (mat1 Wb) (vec128 B1)) (mat2 W2) (vec64 B2))) := by
    rw [laneSum_apply]
    refine Finset.sum_congr rfl fun r _ => ?_
    rw [sqDev_apply, hrow, pay2_apply]
  unfold rowOut layerNorm rowVar
  simp only [E9]
  rw [at0, at1, at2, at3, at4, at5, hmean, hvar, pay2_apply]
  rfl

/-! ## The output buffer after the body -/

theorem hz2 : (![0, 0] : Fin 2 → Nat) = fun _ => 0 := funext fun a => by fin_cases a <;> rfl
theorem hz1 : (![0] : Fin 1 → Nat) = fun _ => 0 := funext fun a => by fin_cases a; rfl

/-- Entry (p, q) of the output buffer after the body, from the input buffers' contents: each load reads a whole
    buffer, the one store writes the whole output buffer, so the buffer holds the block computed above. -/
theorem out_apply (p : Fin 5000) (q : Fin 64) :
    out0_9 (F := Ideal) A N Wa Wb B1 W2 B2 Gm Bt (ix2 p q)
      = rowOut (row A p) (row N p) (mat1 Wa) (mat1 Wb) (vec128 B1) (mat2 W2) (vec64 B2) (vec64 Gm) (vec64 Bt) q := by
  unfold out0_9
  rw [canon9_eq]
  simp only [View.ld_unit_zero (S := S5000x64) hz2, View.ld_unit_zero (S := S64x128) hz2,
    View.ld_unit_zero (S := S128x64) hz2, View.ld_unit_zero (S := S128) hz1, View.ld_unit_zero (S := S64) hz1]
  exact block_apply A N Wa Wb B1 W2 B2 Gm Bt p q

end Cert.KernelIdeal.Block

end
-- ==== Proof.KernelArray.lean ====
/-
  From blocks to the whole array: what the region leaves in the result array.

  The grid has 20 points; point t stages rows 5000 t .. 5000 t + 4999 of the aggregated edge features and of the
  node features, the seven weight arrays whole, and writes back rows 5000 t .. 5000 t + 4999 of the result. What it
  writes back is the node update (`RowSpec.nodeOut`) of the arrays the region finds, read through that block:
  entry (p, q) of the block is `RowSpec.rowOut` of rows 5000 t + p (`Block.out_apply`), and a node's update
  depends on no other row. Row r of the result lies in the block of point r / 5000, so the blocks cover the
  array and it ends holding the node update everywhere.
-/
import proofs.«172644_j44564580663324_1_alg».proof.Proof.Gen.KernelIdeal.Value
import proofs.«172644_j44564580663324_1_alg».proof.Proof.KernelBlock

noncomputable section

namespace Cert.KernelIdeal.Array

open Cert.KernelIdeal Cert.KernelIdeal.Gen Cert.KernelIdeal.Payload Cert.KernelIdeal.Block Cert.RowSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Which block each window stages at a point -/

/-- The printed index maps, decided over the 20 points: the two row-blocked inputs and the output move with the
    point along the rows; the weight arrays stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 1) = 0
    ∧ win0_9.index t (0 : Fin 2) = t.val ∧ win0_9.index t (1 : Fin 2) = 0 :=
  (by decide +kernel : ∀ t : Fin grid0.N, _)

theorem point_lt (t : Fin cfg0.N) : t.val < 20 := lt_of_lt_of_eq t.isLt N_0

/-- The node whose row is row `p` of point `t`'s block. -/
def node (t : Fin cfg0.N) (p : Fin 5000) : Fin 100000 :=
  ⟨t.val * 5000 + p.val, by have := point_lt t; have := p.isLt; omega⟩

/-! ## Where a block's entry sits in its array -/

theorem emb0 (t : Fin cfg0.N) (p : Fin 5000) (i : Fin 64) :
    ((cfg0.win 0).blk t).view.emb (ix2 p i) = ix2 (node t p) i := by
  funext a; apply Fin.ext
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 64 + 1 * i.val = i.val; omega

theorem emb1 (t : Fin cfg0.N) (p : Fin 5000) (i : Fin 64) :
    ((cfg0.win 1).blk t).view.emb (ix2 p i) = ix2 (node t p) i := by
  funext a; apply Fin.ext
  obtain ⟨-, -, e0, e1, -⟩ := idx_facts t
  match a with
  | ⟨0, _⟩ => show win0_1.index t (0 : Fin 2) * 5000 + 1 * p.val = t.val * 5000 + p.val; omega
  | ⟨1, _⟩ => show win0_1.index t (1 : Fin 2) * 64 + 1 * i.val = i.val; omega

theorem emb2 (t : Fin cfg0.N) (i : Fin 64) (k : Fin 128) :
    ((cfg0.win 2).blk t).view.emb (ix2 i k) = ix2 i k := by
  funext a; apply Fin.ext
  obtain ⟨-, -, -, -, e0, e1, -⟩ := idx_facts t
  match a with
  | ⟨0, _⟩ => show win0_2.index t (0 : Fin 2) * 64 + 1 * i.val = i.val; omega
  | ⟨1, _⟩ => show win0_2.index t (1 : Fin 2) * 128 + 1 * k.val = k.val; omega

theorem emb3 (t : Fin cfg0.N) (i : Fin 64) (k : Fin 128) :
    ((cfg0.win 3).blk t).view.emb (ix2 i k) = ix2 i k := by
  funext a; apply Fin.ext
  obtain ⟨-, -, -, -, -, -, e0, e1, -⟩ := idx_facts t
  match a with
  | ⟨0, _⟩ => show win0_3.index t (0 : Fin 2) * 64 + 1 * i.val = i.val; omega
  | ⟨1, _⟩ => show win0_3.index t (1 : Fin 2) * 128 + 1 * k.val = k.val; omega

theorem emb4 (t : Fin cfg0.N) (k : Fin 128) :
    ((cfg0.win 4).blk t).view.emb (ix1 k) = ix1 k := by
  funext a; apply Fin.ext
  obtain ⟨-, -, -, -, -, -, -, -, e0, -⟩ := idx_facts t
  match a with
  | ⟨0, _⟩ => show win0_4.index t (0 : Fin 1) * 128 + 1 * k.val = k.val; omega

theorem emb5 (t : Fin cfg0.N) (i : Fin 128) (k : Fin 64) :
    ((cfg0.win 5).blk t).view.emb (ix2 i k) = ix2 i k := by
  funext a; apply Fin.ext
  obtain ⟨-, -, -, -, -, -, -, -, -, e0, e1, -⟩ := idx_facts t
  match a with
  | ⟨0, _⟩ => show win0_5.index t (0 : Fin 2) * 128 + 1 * i.val = i.val; omega
  | ⟨1, _⟩ => show win0_5.index t (1 : Fin 2) * 64 + 1 * k.val = k.val; omega

theorem emb6 (t : Fin cfg0.N) (k : Fin 64) :
    ((cfg0.win 6).blk t).view.emb (ix1 k) = ix1 k := by
  funext a; apply Fin.ext
  obtain ⟨-, -, -, -, -, -, -, -, -, -, -, e0, -⟩ := idx_facts t
  match a with
  | ⟨0, _⟩ => show win0_6.index t (0 : Fin 1) * 64 + 1 * k.val = k.val; omega

theorem emb7 (t : Fin cfg0.N) (k : Fin 64) :
    ((cfg0.win 7).blk t).view.emb (ix1 k) = ix1 k := by
  funext a; apply Fin.ext
  obtain ⟨-, -, -, -, -, -, -, -, -, -, -, -, e0, -⟩ := idx_facts t
  match a with
  | ⟨0, _⟩ => show win0_7.index t (0 : Fin 1) * 64 + 1 * k.val = k.val; omega

theorem emb8 (t : Fin cfg0.N) (k : Fin 64) :
    ((cfg0.win 8).blk t).view.emb (ix1 k) = ix1 k := by
  funext a; apply Fin.ext
  obtain ⟨-, -, -, -, -, -, -, -, -, -, -, -, -, e0, -⟩ := idx_facts t
  match a with
  | ⟨0, _⟩ => show win0_8.index t (0 : Fin 1) * 64 + 1 * k.val = k.val; omega

/-- Entry (p, q) of point `t`'s output block sits at row `node t p` of the result array. -/
theorem emb9 (t : Fin cfg0.N) (p : Fin 5000) (q : Fin 64) :
    ((cfg0.win 9).blk t).view.emb (ix2 p q) = ix2 (node t p) q := by
  funext a; apply Fin.ext
  obtain ⟨-, -, -, -, -, -, -, -, -, -, -, -, -, -, e0, e1⟩ := idx_facts t
  match a with
  | ⟨0, _⟩ => show win0_9.index t (0 : Fin 2) * 5000 + 1 * p.val = t.val * 5000 + p.val; omega
  | ⟨1, _⟩ => show win0_9.index t (1 : Fin 2) * 64 + 1 * q.val = q.val; omega

/-! ## What a point writes back, for any contents of the nine operand arrays

Stated for arbitrary arrays `X0 … X8` in the nine operands' places, so that nothing here depends on how the region's
operands were computed. -/

section Point

variable (X0 X1 : S100000x64.Idx → EReal) (X2 X3 : S64x128.Idx → EReal) (X4 : S128.Idx → EReal)
  (X5 : S128x64.Idx → EReal) (X6 X7 X8 : S64.Idx → EReal)

theorem rd0 (t : Fin cfg0.N) (p : Fin 5000) (i : Fin 64) : (((cfg0.win 0).blk t).view.read (Elt Ideal) X0) (ix2 p i) = X0 (ix2 (node t p) i) := by
  show X0 (((cfg0.win 0).blk t).view.emb (ix2 p i)) = _
  rw [emb0]
theorem rd1 (t : Fin cfg0.N) (p : Fin 5000) (i : Fin 64) : (((cfg0.win 1).blk t).view.read (Elt Ideal) X1) (ix2 p i) = X1 (ix2 (node t p) i) := by
  show X1 (((cfg0.win 1).blk t).view.emb (ix2 p i)) = _
  rw [emb1]
theorem rd2 (t : Fin cfg0.N) (i : Fin 64) (k : Fin 128) : (((cfg0.win 2).blk t).view.read (Elt Ideal) X2) (ix2 i k) = X2 (ix2 i k) := by
  show X2 (((cfg0.win 2).blk t).view.emb (ix2 i k)) = _
  rw [emb2]
theorem rd3 (t : Fin cfg0.N) (i : Fin 64) (k : Fin 128) : (((cfg0.win 3).blk t).view.read (Elt Ideal) X3) (ix2 i k) = X3 (ix2 i k) := by
  show X3 (((cfg0.win 3).blk t).view.emb (ix2 i k)) = _
  rw [emb3]
theorem rd4 (t : Fin cfg0.N) (k : Fin 128) : (((cfg0.win 4).blk t).view.read (Elt Ideal) X4) (ix1 k) = X4 (ix1 k) := by
  show X4 (((cfg0.win 4).blk t).view.emb (ix1 k)) = _
  rw [emb4]
theorem rd5 (t : Fin cfg0.N) (k : Fin 128) (q : Fin 64) : (((cfg0.win 5).blk t).view.read (Elt Ideal) X5) (ix2 k q) = X5 (ix2 k q) := by
  show X5 (((cfg0.win 5).blk t).view.emb (ix2 k q)) = _
  rw [emb5]
theorem rd6 (t : Fin cfg0.N) (q : Fin 64) : (((cfg0.win 6).blk t).view.read (Elt Ideal) X6) (ix1 q) = X6 (ix1 q) := by
  show X6 (((cfg0.win 6).blk t).view.emb (ix1 q)) = _
  rw [emb6]
theorem rd7 (t : Fin cfg0.N) (q : Fin 64) : (((cfg0.win 7).blk t).view.read (Elt Ideal) X7) (ix1 q) = X7 (ix1 q) := by
  show X7 (((cfg0.win 7).blk t).view.emb (ix1 q)) = _
  rw [emb7]
theorem rd8 (t : Fin cfg0.N) (q : Fin 64) : (((cfg0.win 8).blk t).view.read (Elt Ideal) X8) (ix1 q) = X8 (ix1 q) := by
  show X8 (((cfg0.win 8).blk t).view.emb (ix1 q)) = _
  rw [emb8]

/-- From the nine operands' blocks at point `t`, the body leaves block `t` of their node update. -/
theorem point_eq (t : Fin cfg0.N) :
    (cfg0.win 9).cut (grid0.coords t) (out0_9
      (((cfg0.win 0).blk t).view.read (Elt Ideal) X0)
      (((cfg0.win 1).blk t).view.read (Elt Ideal) X1)
      (((cfg0.win 2).blk t).view.read (Elt Ideal) X2)
      (((cfg0.win 3).blk t).view.read (Elt Ideal) X3)
      (((cfg0.win 4).blk t).view.read (Elt Ideal) X4)
      (((cfg0.win 5).blk t).view.read (Elt Ideal) X5)
      (((cfg0.win 6).blk t).view.read (Elt Ideal) X6)
      (((cfg0.win 7).blk t).view.read (Elt Ideal) X7)
      (((cfg0.win 8).blk t).view.read (Elt Ideal) X8))
      = ((cfg0.win 9).blk t).view.read (Elt Ideal)
          (nodeOut X0 X1 (mat1 X2) (mat1 X3) (vec128 X4) (mat2 X5) (vec64 X6) (vec64 X7) (vec64 X8)) := by
  funext y
  obtain ⟨p, q, rfl⟩ : ∃ (p : Fin 5000) (q : Fin 64), y = ix2 p q := ⟨y 0, y 1, eq_ix2 y⟩
  show out0_9
      (((cfg0.win 0).blk t).view.read (Elt Ideal) X0)
      (((cfg0.win 1).blk t).view.read (Elt Ideal) X1)
      (((cfg0.win 2).blk t).view.read (Elt Ideal) X2)
      (((cfg0.win 3).blk t).view.read (Elt Ideal) X3)
      (((cfg0.win 4).blk t).view.read (Elt Ideal) X4)
      (((cfg0.win 5).blk t).view.read (Elt Ideal) X5)
      (((cfg0.win 6).blk t).view.read (Elt Ideal) X6)
      (((cfg0.win 7).blk t).view.read (Elt Ideal) X7)
      (((cfg0.win 8).blk t).view.read (Elt Ideal) X8) (ix2 p q)
    = nodeOut X0 X1 (mat1 X2) (mat1 X3) (vec128 X4) (mat2 X5) (vec64 X6) (vec64 X7) (vec64 X8)
        (((cfg0.win 9).blk t).view.emb (ix2 p q))
  rw [emb9 t p q, nodeOut_apply]
  refine (out_apply
      (((cfg0.win 0).blk t).view.read (Elt Ideal) X0)
      (((cfg0.win 1).blk t).view.read (Elt Ideal) X1)
      (((cfg0.win 2).blk t).view.read (Elt Ideal) X2)
      (((cfg0.win 3).blk t).view.read (Elt Ideal) X3)
      (((cfg0.win 4).blk t).view.read (Elt Ideal) X4)
      (((cfg0.win 5).blk t).view.read (Elt Ideal) X5)
      (((cfg0.win 6).blk t).view.read (Elt Ideal) X6)
      (((cfg0.win 7).blk t).view.read (Elt Ideal) X7)
      (((cfg0.win 8).blk t).view.read (Elt Ideal) X8) p q).trans ?_
  have h0 : row (((cfg0.win 0).blk t).view.read (Elt Ideal) X0) p = fun k => X0 (ix2 (node t p) k) := funext fun k => rd0 X0 t p k
  have h1 : row (((cfg0.win 1).blk t).view.read (Elt Ideal) X1) p = fun k => X1 (ix2 (node t p) k) := funext fun k => rd1 X1 t p k
  have h2 : mat1 (((cfg0.win 2).blk t).view.read (Elt Ideal) X2) = mat1 X2 := funext fun i => funext fun k => rd2 X2 t i k
  have h3 : mat1 (((cfg0.win 3).blk t).view.read (Elt Ideal) X3) = mat1 X3 := funext fun i => funext fun k => rd3 X3 t i k
  have h4 : vec128 (((cfg0.win 4).blk t).view.read (Elt Ideal) X4) = vec128 X4 := funext fun k => rd4 X4 t k
  have h5 : mat2 (((cfg0.win 5).blk t).view.read (Elt Ideal) X5) = mat2 X5 := funext fun k => funext fun q => rd5 X5 t k q
  have h6 : vec64 (((cfg0.win 6).blk t).view.read (Elt Ideal) X6) = vec64 X6 := funext fun q => rd6 X6 t q
  have h7 : vec64 (((cfg0.win 7).blk t).view.read (Elt Ideal) X7) = vec64 X7 := funext fun q => rd7 X7 t q
  have h8 : vec64 (((cfg0.win 8).blk t).view.read (Elt Ideal) X8) = vec64 X8 := funext fun q => rd8 X8 t q
  rw [h0, h1, h2, h3, h4, h5, h6, h7, h8]

end Point

/-! ## What a point of the run writes back -/

/-- The node update of the arrays as the region finds them. -/
def regionOut (c : Dev nD) : S100000x64.Idx → EReal :=
  nodeOut (V m c main_v2) (V m c main_arg1) (mat1 (V m c main_v3)) (mat1 (V m c main_v4)) (vec128 (V m c main_arg4))
    (mat2 (V m c main_arg5)) (vec64 (V m c main_arg6)) (vec64 (V m c main_arg7)) (vec64 (V m c main_arg8))

/-- Point `t` writes back block `t` of the node update. -/
theorem flushed_eq (c : Dev nD) (t : Fin cfg0.N) :
    (dats m 0 c).flushed 9 t = ((cfg0.win 9).blk t).view.read (Elt Ideal) (regionOut m c) := by
  rw [Value.flushed9]
  exact point_eq (V m c main_v2) (V m c main_arg1) (V m c main_v3) (V m c main_v4) (V m c main_arg4)
    (V m c main_arg5) (V m c main_arg6) (V m c main_arg7) (V m c main_arg8) t

/-! ## The blocks cover the array -/

/-- An index of the result is in point `t`'s block iff each coordinate is in the block's range on its axis. -/
theorem mem_blk (t : Fin cfg0.N) (i : S100000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v5).slice (win0_9.rect t)).set ↔ _
  rw [View.set_slice_whole, Rect.mem_set_unit]
  exact Iff.rfl

/-- Row r of the result lies in the block of point r / 5000. -/
theorem cover (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  have hN : cfg0.N = 20 := N_0
  have ht : (i 0).val / 5000 < cfg0.N := by rw [hN]; omega
  refine ⟨⟨(i 0).val / 5000, ht⟩, flush0_9 _, ?_⟩
  rw [mem_blk]
  obtain ⟨-, -, -, -, -, -, -, -, -, -, -, -, -, -, e0, e1⟩ := idx_facts ⟨(i 0).val / 5000, ht⟩
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, ht⟩ (1 : Fin 2) * 64 ≤ (i 1).val ∧ (i 1).val < win0_9.index ⟨(i 0).val / 5000, ht⟩ (1 : Fin 2) * 64 + 64
    omega

/-- The result array after the region: the node update of the arrays the region finds. -/
theorem final (c : Dev nD) : (dats m 0 c).arrAt 9 cfg0.N = regionOut m c :=
  (dats m 0 c).arrAt_eq_of_cover 9 (regionOut m c) (fun t _ => flushed_eq m c t) cover

end Cert.KernelIdeal.Array

end
-- ==== Proof.KernelHost.lean ====
/-
  The arrays the region finds that the host computed before it.

  Three of the region's operands are not argument arrays but results of host operations on them: the aggregated
  edge features (the scatter-sum of the edge rows into node rows, into zeros) and the top and bottom halves of the
  stacked first weight matrix (rows 0..63 and rows 64..127). The scatter-sum is kept as one term `agg` of the edge
  features and the destination indices; the two slices, read as matrices, are `RowSpec.topHalf` and
  `RowSpec.botHalf` of the stacked matrix.
-/
import proofs.«172644_j44564580663324_1_alg».proof.Proof.Gen.KernelIdeal.Frame
import proofs.«172644_j44564580663324_1_alg».proof.Proof.KernelPayload
import Idealize.ShloMosaic.Lib.ValueLayout
import Idealize.ShloMosaic.Lib.StableHlo.Run

noncomputable section

namespace Cert.KernelIdeal.HostSide

open Cert.KernelIdeal Cert.KernelIdeal.Gen Cert.KernelIdeal.Payload Cert.RowSpec
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The aggregated edge features: edge row e added into node row `dst e`, starting from zeros. -/
def agg (x0 : (⟨S1600000x64, .f32⟩ : BufTy).Contents (Elt Ideal)) (x2 : (⟨S1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x2) x0

/-- The region's first operand is the aggregated edge features of the launch arrays. -/
theorem V_agg (c : Dev nD) :
    (V m c main_v2 : S100000x64.Idx → EReal) = agg (m ((c : Thread nD τ).loc main_arg0)) (m ((c : Thread nD τ).loc main_arg2)) := by
  dsimp only [Gen.V, Gen.hostOps0]
  after_results
  rfl

/-- The region's third operand is rows 0..63 of the stacked weight matrix. -/
theorem V_top (c : Dev nD) :
    (V m c main_v3 : S64x128.Idx → EReal)
      = extractStridedSlice S64x128 ![0, 0] (m ((c : Thread nD τ).loc main_arg3)) slices_S128x128_S64x128_0_0 := by
  dsimp only [Gen.V, Gen.hostOps0]
  after_results

/-- The region's fourth operand is rows 64..127 of the stacked weight matrix. -/
theorem V_bot (c : Dev nD) :
    (V m c main_v4 : S64x128.Idx → EReal)
      = extractStridedSlice S64x128 ![64, 0] (m ((c : Thread nD τ).loc main_arg3)) slices_S128x128_S64x128_64_0 := by
  dsimp only [Gen.V, Gen.hostOps0]
  after_results

/-- Rows 0..63 of a [128,128] matrix, as a matrix, are its top half. -/
theorem mat1_top (W : S128x128.Idx → EReal) :
    mat1 (extractStridedSlice S64x128 ![0, 0] W slices_S128x128_S64x128_0_0) = topHalf W := by
  funext i k
  exact slice2_axis0_apply 0 W slices_S128x128_S64x128_0_0 i k ⟨i.val, by have := i.isLt; omega⟩
    (by show i.val = 0 + i.val; omega)

/-- Rows 64..127 of a [128,128] matrix, as a matrix, are its bottom half. -/
theorem mat1_bot (W : S128x128.Idx → EReal) :
    mat1 (extractStridedSlice S64x128 ![64, 0] W slices_S128x128_S64x128_64_0) = botHalf W := by
  funext i k
  exact slice2_axis0_apply 64 W slices_S128x128_S64x128_64_0 i k ⟨64 + i.val, by have := i.isLt; omega⟩ rfl

end Cert.KernelIdeal.HostSide

end
-- ==== Proof.KernelRun.lean ====
/-
  The kernel program's run: its result array as a function of the launch arrays.

  After the host's scatter-sum and the two slices of the stacked weight matrix, the region writes, block by block,
  the node update of the arrays it finds (`Array.final`). Those arrays are the launch arrays themselves, the
  aggregated edge features `HostSide.agg` of them, and the top and bottom halves of the stacked matrix; so the result
  is `RowSpec.nodeOut` of the launch arrays.
-/
import proofs.«172644_j44564580663324_1_alg».proof.Proof.KernelArray
import proofs.«172644_j44564580663324_1_alg».proof.Proof.KernelHost

noncomputable section

namespace Cert.KernelIdeal.Run

open Cert.KernelIdeal Cert.KernelIdeal.Gen Cert.KernelIdeal.Payload Cert.RowSpec
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result array, as a function of the launch arrays. -/
def result (c : Dev nD) : S100000x64.Idx → EReal :=
  nodeOut (HostSide.agg (m ((c : Thread nD τ).loc main_arg0)) (m ((c : Thread nD τ).loc main_arg2))) (m ((c : Thread nD τ).loc main_arg1))
    (topHalf (m ((c : Thread nD τ).loc main_arg3))) (botHalf (m ((c : Thread nD τ).loc main_arg3))) (vec128 (m ((c : Thread nD τ).loc main_arg4)))
    (mat2 (m ((c : Thread nD τ).loc main_arg5))) (vec64 (m ((c : Thread nD τ).loc main_arg6))) (vec64 (m ((c : Thread nD τ).loc main_arg7))) (vec64 (m ((c : Thread nD τ).loc main_arg8)))

/-- The node update of the arrays the region finds is the node update of the launch arrays. -/
theorem regionOut_eq (c : Dev nD) : Array.regionOut m c = result m c := by
  unfold Array.regionOut result
  rw [HostSide.V_agg m c, V_main_arg1 m c, HostSide.V_top m c, HostSide.V_bot m c, HostSide.mat1_top,
    HostSide.mat1_bot, V_main_arg4 m c, V_main_arg5 m c, V_main_arg6 m c, V_main_arg7 m c, V_main_arg8 m c]

/-- Every weakly fair execution of the kernel program terminates with the result array at `result` and the
    argument arrays unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono
    (fun r h c => ⟨(h c).1.trans ((Array.final m c).trans (regionOut_eq m c)), (h c).2⟩)
    (Value.run_blocks m ρ)

end Cert.KernelIdeal.Run

end
-- ==== Proof.RefValue.lean ====
/-
  The reference's result array, read entry by entry, on the extended reals.

  The reference joins each node's aggregated edge features and its own features into one 128-entry row, multiplies
  by the stacked [128,128] weight matrix, adds the bias, applies SiLU (spelt out as x * (1 / (1 + exp (-x)))),
  multiplies by the second weight matrix, adds its bias, normalises each row (mean and variance over its 64
  entries) with scale and shift, and adds the node's old features. Entry (r, q) of the result is therefore
  `RowSpec.rowOut` of row r of the aggregated features and row r of the node features, with the stacked matrix cut
  into its top and bottom halves: the one 128-term sum over the joined row is the two 64-term sums
  (`RowSpec.preact_of_joined`). The aggregated features themselves (a scatter-sum of edge rows into node rows) are
  kept as one term; nothing here looks inside them.
-/
import proofs.«172644_j44564580663324_1_alg».proof.Proof.Gen.ReferenceIdeal.Read
import proofs.«172644_j44564580663324_1_alg».proof.Proof.RowSpec

noncomputable section

namespace Cert.ReferenceIdeal.RefValue

open Cert.ReferenceIdeal Cert.ReferenceIdeal.Gen Cert.ReferenceIdeal.Read Cert.RowSpec
open Idealize.ShloMosaic Idealize.ShloMosaic.ValueIdx

variable (x0 : (⟨S1600000x64, .f32⟩ : BufTy).Contents (Elt Ideal)) (x1 : (⟨S100000x64, .f32⟩ : BufTy).Contents (Elt Ideal)) (x2 : (⟨S1600000, .i32⟩ : BufTy).Contents (Elt Ideal))
  (x3 : (⟨S128x128, .f32⟩ : BufTy).Contents (Elt Ideal)) (x4 : (⟨S128, .f32⟩ : BufTy).Contents (Elt Ideal)) (x5 : (⟨S128x64, .f32⟩ : BufTy).Contents (Elt Ideal))
  (x6 x7 x8 : (⟨S64, .f32⟩ : BufTy).Contents (Elt Ideal))

/-! ## The printed index maps on indices given by coordinates -/

theorem l4 (r : Fin 100000) (k j : Fin 128) : lidx_main_v4 (ix2 r k) j = ix2 r j := funext fun a => Fin.ext (by match a with | ⟨0, _⟩ => rfl | ⟨1, _⟩ => rfl)
theorem r4 (r : Fin 100000) (k j : Fin 128) : ridx_main_v4 (ix2 r k) j = ix2 j k := funext fun a => Fin.ext (by match a with | ⟨0, _⟩ => rfl | ⟨1, _⟩ => rfl)
theorem i6 (r : Fin 100000) (k : Fin 128) : idx_main_v6 (ix2 r k) = ix2 (0 : Fin 1) k := funext fun a => Fin.ext (by match a with | ⟨0, _⟩ => rfl | ⟨1, _⟩ => rfl)
theorem i5 (u : Fin 1) (k : Fin 128) : idx_main_v5 (ix2 u k) = ix1 k := funext fun a => Fin.ext (by match a with | ⟨0, _⟩ => rfl)
theorem l9 (r : Fin 100000) (q : Fin 64) (k : Fin 128) : lidx_main_v9 (ix2 r q) k = ix2 r k := funext fun a => Fin.ext (by match a with | ⟨0, _⟩ => rfl | ⟨1, _⟩ => rfl)
theorem r9 (r : Fin 100000) (q : Fin 64) (k : Fin 128) : ridx_main_v9 (ix2 r q) k = ix2 k q := funext fun a => Fin.ext (by match a with | ⟨0, _⟩ => rfl | ⟨1, _⟩ => rfl)
theorem i11 (r : Fin 100000) (q : Fin 64) : idx_main_v11 (ix2 r q) = ix2 (0 : Fin 1) q := funext fun a => Fin.ext (by match a with | ⟨0, _⟩ => rfl | ⟨1, _⟩ => rfl)
theorem i10 (u : Fin 1) (q : Fin 64) : idx_main_v10 (ix2 u q) = ix1 q := funext fun a => Fin.ext (by match a with | ⟨0, _⟩ => rfl)
theorem i13 (r : Fin 100000) (q : Fin 64) : idx_main_v13 (ix1 r) q = ix2 r q := funext fun a => Fin.ext (by match a with | ⟨0, _⟩ => rfl | ⟨1, _⟩ => rfl)
theorem i14 (r : Fin 100000) (u : Fin 1) : idx_main_v14 (ix2 r u) = ix1 r := funext fun a => Fin.ext (by match a with | ⟨0, _⟩ => rfl)
theorem i17 (r : Fin 100000) (q : Fin 64) : idx_main_v17 (ix2 r q) = ix2 r (0 : Fin 1) := funext fun a => Fin.ext (by match a with | ⟨0, _⟩ => rfl | ⟨1, _⟩ => rfl)
theorem i20 (r : Fin 100000) (q : Fin 64) : idx_main_v20 (ix1 r) q = ix2 r q := funext fun a => Fin.ext (by match a with | ⟨0, _⟩ => rfl | ⟨1, _⟩ => rfl)
theorem i21 (r : Fin 100000) (u : Fin 1) : idx_main_v21 (ix2 r u) = ix1 r := funext fun a => Fin.ext (by match a with | ⟨0, _⟩ => rfl)
theorem i24 (r : Fin 100000) (q : Fin 64) : idx_main_v24 (ix2 r q) = ix2 r (0 : Fin 1) := funext fun a => Fin.ext (by match a with | ⟨0, _⟩ => rfl | ⟨1, _⟩ => rfl)
theorem i29 (r : Fin 100000) (q : Fin 64) : idx_main_v29 (ix2 r q) = ix2 r (0 : Fin 1) := funext fun a => Fin.ext (by match a with | ⟨0, _⟩ => rfl | ⟨1, _⟩ => rfl)
theorem i32 (r : Fin 100000) (q : Fin 64) : idx_main_v32 (ix2 r q) = ix2 (0 : Fin 1) q := funext fun a => Fin.ext (by match a with | ⟨0, _⟩ => rfl | ⟨1, _⟩ => rfl)
theorem i31 (u : Fin 1) (q : Fin 64) : idx_main_v31 (ix2 u q) = ix1 q := funext fun a => Fin.ext (by match a with | ⟨0, _⟩ => rfl)
theorem i35 (r : Fin 100000) (q : Fin 64) : idx_main_v35 (ix2 r q) = ix2 (0 : Fin 1) q := funext fun a => Fin.ext (by match a with | ⟨0, _⟩ => rfl | ⟨1, _⟩ => rfl)
theorem i34 (u : Fin 1) (q : Fin 64) : idx_main_v34 (ix2 u q) = ix1 q := funext fun a => Fin.ext (by match a with | ⟨0, _⟩ => rfl)

/-! ## The joined row -/

/-- The first 64 entries of a node's joined row are its aggregated edge features. -/
theorem cat_left (r : Fin 100000) (i : Fin 64) :
    val_main_v3 (F := Ideal) x0 x1 x2 (ix2 r ⟨i.val, by have := i.isLt; omega⟩) = val_main_v2 (F := Ideal) x0 x2 (ix2 r i) := by
  unfold val_main_v3
  exact concatenate_pair_apply_left (t := S100000x128) (s₁ := S100000x64) (s₂ := S100000x64) (1 : Fin 2)
    (val_main_v2 (F := Ideal) x0 x2) x1 concatenates_S100000x64_S100000x64_S100000x128_d1
    (ix2 r (⟨i.val, by have := i.isLt; omega⟩ : Fin 128)) rfl (ix2 r i)
    (fun b => by match b with | ⟨0, _⟩ => rfl | ⟨1, _⟩ => rfl)

/-- The last 64 entries of a node's joined row are its own features. -/
theorem cat_right (r : Fin 100000) (i : Fin 64) :
    val_main_v3 (F := Ideal) x0 x1 x2 (ix2 r ⟨64 + i.val, by have := i.isLt; omega⟩) = x1 (ix2 r i) := by
  unfold val_main_v3
  exact concatenate_pair_apply_right (t := S100000x128) (s₁ := S100000x64) (s₂ := S100000x64) (1 : Fin 2)
    (val_main_v2 (F := Ideal) x0 x2) x1 concatenates_S100000x64_S100000x64_S100000x128_d1
    (ix2 r (⟨64 + i.val, by have := i.isLt; omega⟩ : Fin 128)) rfl rfl (ix2 r i)
    (fun b hb => by match b with | ⟨0, _⟩ => rfl | ⟨1, _⟩ => exact absurd rfl hb)
    (by show i.val + 64 = 64 + i.val; omega)

/-! ## The stages -/

/-- Row `r` of the aggregated edge features. -/
abbrev aggRow (r : Fin 100000) : Fin 64 → EReal := fun i => val_main_v2 (F := Ideal) x0 x2 (ix2 r i)
/-- Row `r` of the node features. -/
abbrev nodeRow (r : Fin 100000) : Fin 64 → EReal := fun i => x1 (ix2 r i)
/-- The hidden units of node `r` before the activation. -/
abbrev pre (r : Fin 100000) : Fin 128 → EReal :=
  preact (aggRow x0 x2 r) (nodeRow x1 r) (topHalf x3) (botHalf x3) (fun k => x4 (ix1 k))

/-- Hidden unit `k` of node `r` before the activation: the product over the joined row, split in two. -/
theorem v7_apply (r : Fin 100000) (k : Fin 128) :
    val_main_v7 (F := Ideal) x0 x1 x2 x3 x4 (ix2 r k) = pre x0 x1 x2 x3 x4 r k := by
  rw [val_main_v7_apply, val_main_v4_apply, val_main_v6_apply, val_main_v5_apply]
  simp only [l4, r4, i6, i5]
  exact preact_of_joined (aggRow x0 x2 r) (nodeRow x1 r) (fun j => val_main_v3 (F := Ideal) x0 x1 x2 (ix2 r j))
    (fun j k => x3 (ix2 j k)) (fun k => x4 (ix1 k)) k (cat_left x0 x1 x2 r) (cat_right x0 x1 x2 r)

/-- The activated hidden unit: SiLU, spelt out by the reference, is `x * logistic x`. -/
theorem v8_apply (r : Fin 100000) (k : Fin 128) :
    val_main_v8 (F := Ideal) x0 x1 x2 x3 x4 (ix2 r k) = silu (pre x0 x1 x2 x3 x4 r k) := by
  rw [val_main_v8_apply, val_main_call0_v5_apply, val_main_call0_v4_apply, val_main_call0_cst_0_apply,
    val_main_call0_v3_apply, val_main_call0_v2_apply, val_main_call0_cst_apply, val_main_call0_v1_apply,
    val_main_call0_v0_apply, v7_apply]
  simp only [Ideal.mulf_def, Ideal.hostDivf_def, Ideal.addf_def, Ideal.hostUnary_exp_def, Ideal.hostNegf_def,
    Ideal.negf_def, Ideal.ofBits_def, logistic_expanded]
  rfl

/-- The second linear layer's row for node `r`. -/
abbrev out2 (r : Fin 100000) : Fin 64 → EReal :=
  outLayer (pre x0 x1 x2 x3 x4 r) (fun k q => x5 (ix2 k q)) (fun q => x6 (ix1 q))

theorem v12_apply (r : Fin 100000) (q : Fin 64) :
    val_main_v12 (F := Ideal) x0 x1 x2 x3 x4 x5 x6 (ix2 r q) = out2 x0 x1 x2 x3 x4 x5 x6 r q := by
  rw [val_main_v12_apply, val_main_v9_apply, val_main_v11_apply, val_main_v10_apply]
  simp only [l9, r9, i11, i10, v8_apply]
  rfl

/-- The row's mean, kept as a column. -/
theorem v16_apply (r : Fin 100000) (u : Fin 1) :
    val_main_v16 (F := Ideal) x0 x1 x2 x3 x4 x5 x6 (ix2 r u) = rowMean (out2 x0 x1 x2 x3 x4 x5 x6 r) := by
  rw [val_main_v16_apply, val_main_v14_apply, val_main_v13_apply, val_main_v15_apply, val_main_cst_1_apply,
    val_main_cst_0_apply]
  simp only [i14, i13, v12_apply]
  unfold rowMean
  rw [Ideal.ofBits_def, Ideal.ofBits_zero_f32, zero_add]
  rfl

/-- The row's mean broadcast back over the row's entries. -/
theorem v17_apply (r : Fin 100000) (q : Fin 64) :
    val_main_v17 (F := Ideal) x0 x1 x2 x3 x4 x5 x6 (ix2 r q) = rowMean (out2 x0 x1 x2 x3 x4 x5 x6 r) := by
  rw [val_main_v17_apply, i17, v16_apply]

/-- An entry's squared deviation from its row's mean. -/
theorem sqdev_apply (r : Fin 100000) (q : Fin 64) :
    val_main_v19 (F := Ideal) x0 x1 x2 x3 x4 x5 x6 (ix2 r q)
      = (out2 x0 x1 x2 x3 x4 x5 x6 r q - rowMean (out2 x0 x1 x2 x3 x4 x5 x6 r)) * (out2 x0 x1 x2 x3 x4 x5 x6 r q - rowMean (out2 x0 x1 x2 x3 x4 x5 x6 r)) := by
  rw [val_main_v19_apply, val_main_v18_apply, v12_apply, v17_apply]
  rfl

/-- The row's variance, kept as a column. -/
theorem v23_apply (r : Fin 100000) (u : Fin 1) :
    val_main_v23 (F := Ideal) x0 x1 x2 x3 x4 x5 x6 (ix2 r u) = rowVar (out2 x0 x1 x2 x3 x4 x5 x6 r) := by
  rw [val_main_v23_apply, val_main_v21_apply, i21, val_main_v20_apply, val_main_v22_apply, val_main_cst_3_apply,
    val_main_cst_2_apply]
  have hs : ∑ k : Fin 64, val_main_v19 (F := Ideal) x0 x1 x2 x3 x4 x5 x6 (idx_main_v20 (ix1 r) k)
      = ∑ q : Fin 64, (out2 x0 x1 x2 x3 x4 x5 x6 r q - rowMean (out2 x0 x1 x2 x3 x4 x5 x6 r)) * (out2 x0 x1 x2 x3 x4 x5 x6 r q - rowMean (out2 x0 x1 x2 x3 x4 x5 x6 r)) :=
    Finset.sum_congr rfl fun k _ => by rw [i20, sqdev_apply]
  rw [hs]
  unfold rowVar
  rw [Ideal.ofBits_def, Ideal.ofBits_zero_f32, zero_add]
  rfl

/-- Entry (r, q) of the reference's result. -/
theorem v37_apply (r : Fin 100000) (q : Fin 64) :
    val_main_v37 (F := Ideal) x0 x1 x2 x3 x4 x5 x6 x7 x8 (ix2 r q)
      = rowOut (aggRow x0 x2 r) (nodeRow x1 r) (topHalf x3) (botHalf x3) (fun k => x4 (ix1 k))
          (fun k q => x5 (ix2 k q)) (fun q => x6 (ix1 q)) (fun q => x7 (ix1 q)) (fun q => x8 (ix1 q)) q := by
  rw [val_main_v37_apply, val_main_v36_apply, val_main_v33_apply, val_main_v35_apply, val_main_v34_apply,
    val_main_v32_apply, val_main_v31_apply, val_main_v30_apply, val_main_v25_apply, val_main_v24_apply,
    val_main_v29_apply, val_main_v28_apply, val_main_v27_apply, val_main_v26_apply, val_main_cst_4_apply]
  simp only [i35, i34, i32, i31, i24, i29, v16_apply, v23_apply, v12_apply]
  rfl

/-- The reference's result array is the node update of the aggregated edge features and the node features. -/
theorem result_eq :
    val_main_v37 (F := Ideal) x0 x1 x2 x3 x4 x5 x6 x7 x8
      = nodeOut (val_main_v2 (F := Ideal) x0 x2) x1 (topHalf x3) (botHalf x3) (fun k => x4 (ix1 k))
          (fun k q => x5 (ix2 k q)) (fun q => x6 (ix1 q)) (fun q => x7 (ix1 q)) (fun q => x8 (ix1 q)) := by
  funext i
  obtain ⟨r, q, rfl⟩ : ∃ (r : Fin 100000) (q : Fin 64), i = ix2 r q := ⟨i 0, i 1, eq_ix2 i⟩
  rw [v37_apply, nodeOut_apply]

end Cert.ReferenceIdeal.RefValue

end
-- ==== Proof.lean ====
/-
  The node update of a message-passing layer, computed two ways, gives the same array on the extended reals.

  Both programs first add every edge's 64 features into its destination node's row (a scatter-sum, the same host
  operation in both, kept as one term). The reference then joins each node's aggregated row and its own 64 features
  into a 128-entry row, applies Linear(128 -> 128), SiLU, Linear(128 -> 64), layer norm over the 64 outputs with scale
  and shift, and adds the node's old features. The kernel instead cuts the first weight matrix into its top and
  bottom 64 rows on the host and, in one region over 20 blocks of 5000 nodes, computes per block
  agg * Wtop + nfeat * Wbot + b1, SiLU, the second layer, the layer norm and the residual.

  At the ideal instance a matrix product is the plain sum over its contracted axis and a change of float format is
  the identity, so the two differ only in how the first layer's sum is grouped: one sum over 128 terms against two
  sums over 64 terms, equal because a finite sum over a disjoint union splits (`RowSpec.preact_of_joined`); and in
  how SiLU is spelt, x * logistic x against x * (1 / (1 + exp (-x))), one function (`RowSpec.logistic_expanded`).
  Neither step needs an entry to be finite, so the precondition is not used by the value claim.

  Each output row depends only on the same row of the two inputs, so the kernel's blocks are blocks of one
  whole-array function `RowSpec.nodeOut` (`Array.flushed_eq`), they cover the array (`Array.cover`), and the reference's
  result is the same function (`RefValue.result_eq`). The three frames are the generated frame runs; the
  idealization rewrote no operation, so `preserves` asks nothing.
-/
import proofs.«172644_j44564580663324_1_alg».proof.Defs
import proofs.«172644_j44564580663324_1_alg».proof.Proof.Gen.Kernel
import proofs.«172644_j44564580663324_1_alg».proof.Proof.Gen.Kernel.Skeleton
import proofs.«172644_j44564580663324_1_alg».proof.Proof.Gen.Kernel.Launch
import proofs.«172644_j44564580663324_1_alg».proof.Proof.Gen.Kernel.Points
import proofs.«172644_j44564580663324_1_alg».proof.Proof.Gen.Kernel.Frame
import proofs.«172644_j44564580663324_1_alg».proof.Proof.Gen.KernelIdeal
import proofs.«172644_j44564580663324_1_alg».proof.Proof.Gen.KernelIdeal.Skeleton
import proofs.«172644_j44564580663324_1_alg».proof.Proof.Gen.KernelIdeal.Launch
import proofs.«172644_j44564580663324_1_alg».proof.Proof.Gen.KernelIdeal.Points
import proofs.«172644_j44564580663324_1_alg».proof.Proof.Gen.KernelIdeal.Frame
import proofs.«172644_j44564580663324_1_alg».proof.Proof.Gen.ReferenceIdeal
import proofs.«172644_j44564580663324_1_alg».proof.Proof.Gen.KernelIdeal.Value
import proofs.«172644_j44564580663324_1_alg».proof.Proof.Gen.ReferenceIdeal.Run
import proofs.«172644_j44564580663324_1_alg».proof.Proof.Gen.ReferenceIdeal.Read
import proofs.«172644_j44564580663324_1_alg».proof.Proof.Gen.Pre_finite_inputs
import proofs.«172644_j44564580663324_1_alg».proof.Proof.KernelRun
import proofs.«172644_j44564580663324_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The two programs' scatter-sums of the edge features are one term. -/
theorem agg_eq (x0 : (⟨Cert.KernelIdeal.S1600000x64, .f32⟩ : BufTy).Contents (Elt Ideal))
    (x2 : (⟨Cert.KernelIdeal.S1600000, .i32⟩ : BufTy).Contents (Elt Ideal)) :
    Cert.ReferenceIdeal.Read.val_main_v2 (F := Ideal) x0 x2 = Cert.KernelIdeal.HostSide.agg x0 x2 := rfl

/-- From memories agreeing on the arguments both programs end with the node update of those arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelIdeal.Run.result m c, ?_, ?_⟩
  · exact (θ_run Cert.KernelIdeal.defs _ _).mono (fun r h c => ⟨(h c).2.1, (h c).1, (h c).2⟩)
      (Cert.KernelIdeal.Run.run m ρ)
  · refine (θ_run Cert.ReferenceIdeal.defs _ _).mono
      (fun r h c => ⟨(h c).1.trans (hagree c).1, (h c).2.1.trans ?_, (h c).2.2⟩)
      (Cert.ReferenceIdeal.Value.run (F := Ideal) m' ρ')
    rw [Cert.ReferenceIdeal.Read.val_main_v37_eq, Cert.ReferenceIdeal.RefValue.result_eq, (hagree c).1,
      (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2, agg_eq]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
